-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 67
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x64, .f32⟩
  | .local _ .vmem, ⟨29, _⟩ => ⟨S128x64, .f32⟩
  | .local _ .vmem, ⟨30, _⟩ => ⟨S64, .f32⟩
  | .local _ .vmem, ⟨31, _⟩ => ⟨S2000x64, .f32⟩
  | .local _ .vmem, ⟨32, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its RESULT array named.  The program is six segments: host operations, the
  first layer's pallas_call, host operations, the second layer's call, host operations, the third layer's call.  Every
  weakly fair execution terminates with every buffer at the contents the segments leave one after the other; read at
  the result buffer this is what the third call's write-backs leave in it, and read at the twelve arguments it is the
  launch contents.
-/
import proofs.«170077_j43078521979013_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at what the last segment leaves in it, the arguments as launched. -/
theorem run : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Result

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«170077_j43078521979013_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«170077_j43078521979013_1_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.LibMeanLayer.lean ====
/-
  One mean-aggregation graph layer, read at an entry on the extended reals, for any extents R (rows), K (input width)
  and N (output width).

  With h the node features, a the per-node SUM of the neighbours' features and D the per-node neighbour count clamped
  from below at one, the layer is
      out (r, g) = ( Σₖ h (r, k) · Ws (k, g)  +  Σₖ (a (r, k) / D r) · Wn (k, g) )  +  b g ,
  optionally rectified.  A kernel body spells the neighbour mean as a product with a stored reciprocal column,
  a (r, k) · (1 / D r); a host program divides, a (r, k) / D r.  On the extended reals the two agree as soon as
  D r is not zero (x · (1 / y) = x / y for y ≠ 0, also at the infinities), and D r ≥ 1 > 0 whatever the count is.
  Both matrix products are plain sums over the contracted axis and a change of float format is the identity, so both
  spellings read, entry by entry, as the formula above in this grouping: no sum is re-associated.
-/
import Idealize.ShloMosaic.Lib.Pipeline.Value
import Idealize.ShloMosaic.Lib.ValueIdx
import Idealize.ShloMosaic.Lib.IdealHost
import Idealize.ShloMosaic.PureOps.Ideal.Laws
import proofs.«170077_j43078521979013_1_alg».proof.Proof.LibPlainMatmul
import proofs.«170077_j43078521979013_1_alg».proof.Proof.LibPlainDot
import proofs.«170077_j43078521979013_1_alg».proof.Proof.LibHostRows
import proofs.«170077_j43078521979013_1_alg».proof.Proof.LibKeepdims
import proofs.«170077_j43078521979013_1_alg».proof.Proof.LibDenseRow

noncomputable section

open scoped BigOperators

namespace Cert.MeanSage

open Idealize.ShloMosaic Idealize.ShloMosaic.ValueIdx

variable {R K N : ℕ}

/-- The word of 1.0 and the zero word of f32, on the extended reals. -/
abbrev oneW : EReal := Ideal.ofBits .f32 0x3F800000#32
abbrev zeroW : EReal := Ideal.ofBits .f32 0x00000000#32

/-- A neighbour count clamped from below at one. -/
def clamp (deg : EReal) : EReal := max deg oneW

/-- The clamped count is at least one, so it is never zero. -/
theorem clamp_ne_zero (deg : EReal) : clamp deg ≠ 0 := by
  have h1 : (0 : EReal) < oneW := by
    show (0 : EReal) < Ideal.ofBits .f32 0x3F800000#32
    rw [Ideal.ofBits_one_f32]; exact zero_lt_one
  exact (lt_of_lt_of_le h1 (le_max_right _ _)).ne'

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- Entry (r, g) of the layer before its rectifier: (h · Ws + (a / D) · Wn) + b. -/
def layerAt (H A : (⟨2, ![R, K]⟩ : Shape).Idx → EReal) (D : Fin R → EReal)
    (Ws Wn : (⟨2, ![K, N]⟩ : Shape).Idx → EReal) (b : (⟨1, ![N]⟩ : Shape).Idx → EReal) (r : Fin R) (g : Fin N) : EReal :=
  (dotAt H Ws r g + ∑ k : Fin K, Ideal.div (A (ix2 r k)) (D r) * Wn (ix2 k g)) + b (ix1 g)

/-- The layer as a whole matrix. -/
def layerLin (H A : (⟨2, ![R, K]⟩ : Shape).Idx → EReal) (D : Fin R → EReal)
    (Ws Wn : (⟨2, ![K, N]⟩ : Shape).Idx → EReal) (b : (⟨1, ![N]⟩ : Shape).Idx → EReal) : (⟨2, ![R, N]⟩ : Shape).Idx → EReal :=
  fun i => layerAt H A D Ws Wn b (i 0) (i 1)

/-- The rectified layer as a whole matrix. -/
def layerRelu (H A : (⟨2, ![R, K]⟩ : Shape).Idx → EReal) (D : Fin R → EReal)
    (Ws Wn : (⟨2, ![K, N]⟩ : Shape).Idx → EReal) (b : (⟨1, ![N]⟩ : Shape).Idx → EReal) : (⟨2, ![R, N]⟩ : Shape).Idx → EReal :=
  fun i => max (layerAt H A D Ws Wn b (i 0) (i 1)) zeroW

/-- An entry of the layer reads one row of the features, one row of the neighbour sums and one count: two layers over
    different numbers of rows agree at rows that hold the same data. -/
theorem layerAt_congr {R' : ℕ} (H A : (⟨2, ![R, K]⟩ : Shape).Idx → EReal) (D : Fin R → EReal)
    (H' A' : (⟨2, ![R', K]⟩ : Shape).Idx → EReal) (D' : Fin R' → EReal)
    (Ws Wn : (⟨2, ![K, N]⟩ : Shape).Idx → EReal) (b : (⟨1, ![N]⟩ : Shape).Idx → EReal) (r : Fin R) (r' : Fin R') (g : Fin N)
    (hH : ∀ k : Fin K, H (ix2 r k) = H' (ix2 r' k)) (hA : ∀ k : Fin K, A (ix2 r k) = A' (ix2 r' k)) (hD : D r = D' r') :
    layerAt H A D Ws Wn b r g = layerAt H' A' D' Ws Wn b r' g := by
  unfold layerAt dotAt
  rw [hD]
  refine congrArg (· + b (ix1 g)) (congrArg₂ (· + ·) ?_ ?_)
  · exact Finset.sum_congr rfl fun k _ => by rw [hH k]
  · exact Finset.sum_congr rfl fun k _ => by rw [hA k]

/-- The kernel body's spelling before its rectifier, at an entry of a block of rows: two matrix products of operands
    narrowed to bf16, each into the zero accumulator, the second row operand the neighbour sums times the reciprocal
    column repeated along the row, plus the bias vector made a row and repeated down the rows. -/
theorem kernel_layer_at (X0 X1 : FVec Ideal ⟨2, ![R, K]⟩ .f32) (x2 : FVec Ideal ⟨2, ![R, 1]⟩ .f32)
    (x3 x4 : FVec Ideal ⟨2, ![K, N]⟩ .f32) (x5 : FVec Ideal ⟨1, ![N]⟩ .f32)
    (h1 h2 h3 h4 : FTy.bf16.bits < FTy.f32.bits)
    (hc2 hc2' : (⟨2, ![R, 1]⟩ : Shape).ShapeCasts ⟨2, ![R, 1]⟩) (hbc : (⟨2, ![R, 1]⟩ : Shape).Broadcasts ⟨2, ![R, K]⟩)
    (hc5 : (⟨1, ![N]⟩ : Shape).ShapeCasts ⟨2, ![1, N]⟩) (hb5 : (⟨2, ![1, N]⟩ : Shape).Broadcasts ⟨2, ![R, N]⟩)
    (D : Fin R → EReal) (r : Fin R) (g : Fin N)
    (hd : x2 (ix2 r (0 : Fin 1)) = Ideal.div oneW (D r)) (hD : D r ≠ 0) :
    addf (addf
          (matmul (DotDims.plain R K N) none (truncf .bf16 X0 h1) (truncf .bf16 x3 h2) (constant ⟨2, ![R, N]⟩ .f32 0x00000000#32))
          (matmul (DotDims.plain R K N) none
            (truncf .bf16 (mulf X1 (broadcastTo ⟨2, ![R, K]⟩ (shapeCast ⟨2, ![R, 1]⟩ (shapeCast ⟨2, ![R, 1]⟩ x2 hc2) hc2') hbc)) h3)
            (truncf .bf16 x4 h4) (constant ⟨2, ![R, N]⟩ .f32 0x00000000#32)))
        (broadcastTo ⟨2, ![R, N]⟩ (shapeCast ⟨2, ![1, N]⟩ x5 hc5) hb5) (ix2 r g)
      = layerAt X0 X1 D x3 x4 x5 r g := by
  rw [addf_apply, addf_apply]
  unfold layerAt
  refine congrArg₂ (· + ·) (congrArg₂ (· + ·) ?_ ?_) ?_
  · exact Cert.LibPlainMatmul.matmul_zero_apply none (truncf .bf16 X0 h1) (truncf .bf16 x3 h2) r g
  · refine (Cert.LibPlainMatmul.matmul_zero_apply none _ (truncf .bf16 x4 h4) r g).trans ?_
    refine Finset.sum_congr rfl fun k _ => ?_
    refine congrArg (· * x4 (ix2 k g)) ?_
    show X1 (ix2 r k) * broadcastTo ⟨2, ![R, K]⟩ (shapeCast ⟨2, ![R, 1]⟩ (shapeCast ⟨2, ![R, 1]⟩ x2 hc2) hc2') hbc (ix2 r k) = _
    rw [Cert.LibKeepdims.broadcastTo_a1_ab_apply, shapeCast_self, shapeCast_self, hd]
    show X1 (ix2 r k) * Ideal.div (Ideal.ofBits .f32 0x3F800000#32) (D r) = _
    rw [Ideal.ofBits_one_f32]
    exact Ideal.mul_one_div hD
  · exact Cert.LibDenseRow.biasRow_at x5 hc5 hb5 r g

/-- The host's spelling before its rectifier, at an entry: two dot_generals added, the second left operand the
    neighbour sums divided by the clamped counts (a vector made a column and repeated along the row), plus the bias
    vector made a row and repeated down the rows. -/
theorem host_layer_at (H A : FVec Ideal ⟨2, ![R, K]⟩ .f32) (Dv : FVec Ideal ⟨1, ![R]⟩ .f32)
    (Ws Wn : FVec Ideal ⟨2, ![K, N]⟩ .f32) (b : FVec Ideal ⟨1, ![N]⟩ .f32)
    (c1 : Fin (⟨1, ![R]⟩ : Shape).rank → Fin (⟨2, ![R, 1]⟩ : Shape).rank) (hc1 : c1 0 = 0)
    (hbc1 : (⟨1, ![R]⟩ : Shape).BroadcastsInDim ⟨2, ![R, 1]⟩ c1)
    (c2 : Fin (⟨2, ![R, 1]⟩ : Shape).rank → Fin (⟨2, ![R, K]⟩ : Shape).rank) (hc20 : c2 0 = 0) (hc21 : c2 1 = 1)
    (hbc2 : (⟨2, ![R, 1]⟩ : Shape).BroadcastsInDim ⟨2, ![R, K]⟩ c2)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (addf (Host.dotGeneral (DotDims.plain R K N) none H Ws)
          (Host.dotGeneral (DotDims.plain R K N) none
            (Host.divf A (broadcastInDim ⟨2, ![R, K]⟩ c2 hbc2 (broadcastInDim ⟨2, ![R, 1]⟩ c1 hbc1 Dv))) Wn))
        (broadcastInDim ⟨2, ![R, N]⟩ d2 hb2 (broadcastInDim ⟨2, ![1, N]⟩ d1 hb1 b)) (ix2 r g)
      = layerAt H A (fun r => Dv (ix1 r)) Ws Wn b r g := by
  rw [addf_apply, addf_apply]
  unfold layerAt
  refine congrArg₂ (· + ·) (congrArg₂ (· + ·) ?_ ?_) ?_
  · exact Cert.LibPlainDot.dotGeneral_apply none H Ws r g
  · refine (Cert.LibPlainDot.dotGeneral_apply none _ Wn r g).trans ?_
    refine Finset.sum_congr rfl fun k _ => ?_
    refine congrArg (· * Wn (ix2 k g)) ?_
    rw [hostDivf_apply, Cert.LibHostRows.bcast_a1_ab_at c2 hc20 hc21 hbc2 _ r k,
      Cert.LibHostRows.bcast_a_a1_at c1 hc1 hbc1 Dv r (0 : Fin 1)]
  · rw [Cert.LibHostRows.bcast_1b_ab_at d2 hd20 hd21 hb2 _ r g, Cert.LibHostRows.bcast_b_1b_at d1 hd1 hb1 b (0 : Fin 1) g]

end Cert.MeanSage

end
-- ==== Proof.Region0.lean ====
/-
  The first layer's pallas_call, read as a value.  The call walks the 50000 node rows in 25 blocks of 2000.  At block t
  its body loads rows 2000·t … 2000·t + 1999 of the features, of the neighbour sums and of the reciprocal-count column,
  the two whole weight matrices and the bias, and stores the rectified mean-aggregation layer of those rows.  An entry of
  that layer reads one row of the row-indexed operands, so block t of the result is block t of the layer taken over all
  50000 rows at once; the 25 blocks tile the result array, which therefore ends holding the whole layer.  Stated for
  any contents the call may find in its arrays, given that the reciprocal column holds 1 / D r for a count D r ≠ 0.
-/
import proofs.«170077_j43078521979013_1_alg».proof.Proof.Gen.KernelIdeal.Frame
import proofs.«170077_j43078521979013_1_alg».proof.Proof.LibMeanLayer

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem Cert.MeanSage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index of every window at every grid point: the row-indexed windows sit at block t, the weights and the
    bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of block t is row 2000·t + p of the array. -/
def rowOf (t : Fin cfg0.N) (p : Fin 2000) : Fin 50000 :=
  ⟨t.val * 2000 + p.val, by
    have h : t.val < 25 := t.isLt.trans_eq N_0
    have := p.isLt; omega⟩

theorem blk_0 (c : Dev nD) (t : Fin cfg0.N) (p : Fin 2000) (k : Fin 128) :
    iblk0 V c 0 t (ix2 p k) = (V c main_arg0 : S50000x128.Idx → EReal) (ix2 (rowOf t p) k) := by
  obtain ⟨e0, e1, -⟩ := idx_facts t
  show (V c main_arg0 : S50000x128.Idx → EReal) (((cfg0.win 0).blk t).view.emb (ix2 p k)) = _
  refine congrArg (V c main_arg0 : S50000x128.Idx → EReal) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk_1 (c : Dev nD) (t : Fin cfg0.N) (p : Fin 2000) (k : Fin 128) :
    iblk0 V c 1 t (ix2 p k) = (V c main_v18 : S50000x128.Idx → EReal) (ix2 (rowOf t p) k) := by
  obtain ⟨-, -, e0, e1, -⟩ := idx_facts t
  show (V c main_v18 : S50000x128.Idx → EReal) (((cfg0.win 1).blk t).view.emb (ix2 p k)) = _
  refine congrArg (V c main_v18 : S50000x128.Idx → EReal) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem blk_2 (c : Dev nD) (t : Fin cfg0.N) (p : Fin 2000) :
    iblk0 V c 2 t (ix2 p (0 : Fin 1)) = (V c main_v8 : S50000x1.Idx → EReal) (ix2 (rowOf t p) (0 : Fin 1)) := by
  obtain ⟨-, -, -, -, e0, e1, -⟩ := idx_facts t
  show (V c main_v8 : S50000x1.Idx → EReal) (((cfg0.win 2).blk t).view.emb (ix2 p (0 : Fin 1))) = _
  refine congrArg (V c main_v8 : S50000x1.Idx → EReal) (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

theorem blk_3 (c : Dev nD) (t : Fin cfg0.N) : iblk0 V c 3 t = (V c main_arg3 : S128x128.Idx → EReal) := by
  obtain ⟨-, -, -, -, -, -, e0, e1, -⟩ := idx_facts t
  funext y
  show (V c main_arg3 : S128x128.Idx → EReal) (((cfg0.win 3).blk t).view.emb y) = _
  refine congrArg (V c main_arg3 : S128x128.Idx → EReal) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk_4 (c : Dev nD) (t : Fin cfg0.N) : iblk0 V c 4 t = (V c main_arg4 : S128x128.Idx → EReal) := by
  obtain ⟨-, -, -, -, -, -, -, -, e0, e1, -⟩ := idx_facts t
  funext y
  show (V c main_arg4 : S128x128.Idx → EReal) (((cfg0.win 4).blk t).view.emb y) = _
  refine congrArg (V c main_arg4 : S128x128.Idx → EReal) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk_5 (c : Dev nD) (t : Fin cfg0.N) : iblk0 V c 5 t = (V c main_arg5 : S128.Idx → EReal) := by
  obtain ⟨-, -, -, -, -, -, -, -, -, -, e0, -⟩ := idx_facts t
  funext y
  show (V c main_arg5 : S128.Idx → EReal) (((cfg0.win 5).blk t).view.emb y) = _
  refine congrArg (V c main_arg5 : S128.Idx → EReal) (funext fun a => Fin.ext ?_)
  match a with
  | ⟨0, _⟩ => show win0_5.index t (0 : Fin 1) * 128 + 1 * (y 0).val = (y 0).val; omega

/-- The body's stored value at an entry of a block, over any loaded blocks: the rectified layer at that entry. -/
theorem pay_at (x0 x1 : FVec Ideal S2000x128 .f32) (x2 : FVec Ideal S2000x1 .f32) (x3 x4 : FVec Ideal S128x128 .f32)
    (x5 : FVec Ideal S128 .f32) (D : Fin 2000 → EReal) (p : Fin 2000) (g : Fin 128)
    (hd : x2 (ix2 p (0 : Fin 1)) = Ideal.div oneW (D p)) (hD : D p ≠ 0) :
    k0_pay1 (F := Ideal) x0 x1 x2 x3 x4 x5 (ix2 p g) = max (layerAt x0 x1 D x3 x4 x5 p g) zeroW := by
  have e := kernel_layer_at x0 (shapeCast S2000x128 x1 shapeCasts_S2000x128_S2000x128) x2 x3 x4 x5
    bitsLt_bf16_f32 bitsLt_bf16_f32 bitsLt_bf16_f32 bitsLt_bf16_f32 shapeCasts_S2000x1_S2000x1 shapeCasts_S2000x1_S2000x1
    broadcasts_S2000x1_S2000x128 shapeCasts_S128_S1x128 broadcasts_S1x128_S2000x128 D p g hd hD
  have e2 : layerAt x0 (shapeCast S2000x128 x1 shapeCasts_S2000x128_S2000x128) D x3 x4 x5 p g = layerAt x0 x1 D x3 x4 x5 p g := by
    rw [shapeCast_self]
  exact congrArg₂ max (e.trans e2) rfl

/-- What point t writes back is block t of the layer over the whole arrays. -/
theorem flushed_eq (c : Dev nD) (t : Fin cfg0.N) (D : Fin 50000 → EReal)
    (hd : ∀ r : Fin 50000, (V c main_v8 : S50000x1.Idx → EReal) (ix2 r (0 : Fin 1)) = Ideal.div oneW (D r))
    (hD : ∀ r, D r ≠ 0) :
    (dat0 V c).flushed 6 t = ((cfg0.win 6).blk t).view.read (Elt Ideal)
      (layerRelu (R := 50000) (K := 128) (N := 128) (V c main_arg0 : S50000x128.Idx → EReal) (V c main_v18 : S50000x128.Idx → EReal) D
        (V c main_arg3 : S128x128.Idx → EReal) (V c main_arg4 : S128x128.Idx → EReal) (V c main_arg5 : S128.Idx → EReal)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S128) hz1]
  funext j
  obtain ⟨p, g, rfl⟩ : ∃ (p : Fin 2000) (g : Fin 128), j = ix2 p g := ⟨j 0, j 1, eq_ix2 j⟩
  obtain ⟨-, -, -, -, -, -, -, -, -, -, -, e0, e1⟩ := idx_facts t
  have hemb : ((cfg0.win 6).blk t).view.emb (ix2 p g) = (ix2 (rowOf t p) g : S50000x128.Idx) := by
    refine funext fun a => Fin.ext ?_
    match a with
    | ⟨0, _⟩ => show win0_6.index t (0 : Fin 2) * 2000 + 1 * p.val = t.val * 2000 + p.val; omega
    | ⟨1, _⟩ => show win0_6.index t (1 : Fin 2) * 128 + 1 * g.val = g.val; omega
  refine (pay_at (iblk0 V c 0 t) (iblk0 V c 1 t) (iblk0 V c 2 t) (iblk0 V c 3 t) (iblk0 V c 4 t) (iblk0 V c 5 t)
    (fun q => D (rowOf t q)) p g ((blk_2 V c t p).trans (hd (rowOf t p))) (hD (rowOf t p))).trans ?_
  show _ = layerRelu (R := 50000) (K := 128) (N := 128) _ _ D _ _ _ (((cfg0.win 6).blk t).view.emb (ix2 p g))
  rw [hemb, blk_3, blk_4, blk_5]
  exact congrArg (max · zeroW) (layerAt_congr _ _ _ _ _ D _ _ _ p (rowOf t p) g (fun k => blk_0 V c t p k) (fun k => blk_1 V c t p k) rfl)

/-- Every row of the result lies in the block of the point ⌊row / 2000⌋. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, by show (i 0).val / 2000 < grid0.N; rw [N_0]; omega⟩
  obtain ⟨-, -, -, -, -, -, -, -, -, -, -, e0, e1⟩ := idx_facts t
  have ht : t.val = (i 0).val / 2000 := rfl
  refine ⟨t, flush0_6 t, ?_⟩
  show i ∈ ((View.whole main_v19).slice (win0_6.rect t)).set
  rw [View.set_slice_whole, Rect.mem_set_unit]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The result array after the call: the rectified layer of the arrays the call found. -/
theorem final (c : Dev nD) (D : Fin 50000 → EReal)
    (hd : ∀ r : Fin 50000, (V c main_v8 : S50000x1.Idx → EReal) (ix2 r (0 : Fin 1)) = Ideal.div oneW (D r))
    (hD : ∀ r, D r ≠ 0) :
    (dat0 V c).arrAt 6 cfg0.N
      = layerRelu (R := 50000) (K := 128) (N := 128) (V c main_arg0 : S50000x128.Idx → EReal) (V c main_v18 : S50000x128.Idx → EReal) D
        (V c main_arg3 : S128x128.Idx → EReal) (V c main_arg4 : S128x128.Idx → EReal) (V c main_arg5 : S128.Idx → EReal) :=
  (dat0 V c).arrAt_eq_of_cover 6 _ (fun t _ => flushed_eq V c t D hd hD) cover

end Cert.KernelIdeal.Layer0

end
-- ==== Proof.Region1.lean ====
/-
  The second layer's pallas_call, read as a value: the same walk over the 50000 node rows in 25 blocks of 2000 as the
  first layer's, on the first layer's output as features and on the neighbour sums taken of that output.  Block t of
  the result is block t of the rectified mean-aggregation layer over all rows, and the 25 blocks tile the result
  array.  Stated for any contents the call may find in its arrays, given that the reciprocal column holds 1 / D r for a
  count D r ≠ 0.
-/
import proofs.«170077_j43078521979013_1_alg».proof.Proof.Gen.KernelIdeal.Frame
import proofs.«170077_j43078521979013_1_alg».proof.Proof.LibMeanLayer

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem Cert.MeanSage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index of every window at every grid point: the row-indexed windows sit at block t, the weights and the
    bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row p of block t is row 2000·t + p of the array. -/
def rowOf (t : Fin cfg1.N) (p : Fin 2000) : Fin 50000 :=
  ⟨t.val * 2000 + p.val, by
    have h : t.val < 25 := t.isLt.trans_eq N_1
    have := p.isLt; omega⟩

theorem blk_0 (c : Dev nD) (t : Fin cfg1.N) (p : Fin 2000) (k : Fin 128) :
    iblk1 V c 0 t (ix2 p k) = (V c main_v19 : S50000x128.Idx → EReal) (ix2 (rowOf t p) k) := by
  obtain ⟨e0, e1, -⟩ := idx_facts t
  show (V c main_v19 : S50000x128.Idx → EReal) (((cfg1.win 0).blk t).view.emb (ix2 p k)) = _
  refine congrArg (V c main_v19 : S50000x128.Idx → EReal) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem blk_1 (c : Dev nD) (t : Fin cfg1.N) (p : Fin 2000) (k : Fin 128) :
    iblk1 V c 1 t (ix2 p k) = (V c main_v29 : S50000x128.Idx → EReal) (ix2 (rowOf t p) k) := by
  obtain ⟨-, -, e0, e1, -⟩ := idx_facts t
  show (V c main_v29 : S50000x128.Idx → EReal) (((cfg1.win 1).blk t).view.emb (ix2 p k)) = _
  refine congrArg (V c main_v29 : S50000x128.Idx → EReal) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

theorem blk_2 (c : Dev nD) (t : Fin cfg1.N) (p : Fin 2000) :
    iblk1 V c 2 t (ix2 p (0 : Fin 1)) = (V c main_v8 : S50000x1.Idx → EReal) (ix2 (rowOf t p) (0 : Fin 1)) := by
  obtain ⟨-, -, -, -, e0, e1, -⟩ := idx_facts t
  show (V c main_v8 : S50000x1.Idx → EReal) (((cfg1.win 2).blk t).view.emb (ix2 p (0 : Fin 1))) = _
  refine congrArg (V c main_v8 : S50000x1.Idx → EReal) (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * 0 = 0; omega

theorem blk_3 (c : Dev nD) (t : Fin cfg1.N) : iblk1 V c 3 t = (V c main_arg6 : S128x128.Idx → EReal) := by
  obtain ⟨-, -, -, -, -, -, e0, e1, -⟩ := idx_facts t
  funext y
  show (V c main_arg6 : S128x128.Idx → EReal) (((cfg1.win 3).blk t).view.emb y) = _
  refine congrArg (V c main_arg6 : S128x128.Idx → EReal) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk_4 (c : Dev nD) (t : Fin cfg1.N) : iblk1 V c 4 t = (V c main_arg7 : S128x128.Idx → EReal) := by
  obtain ⟨-, -, -, -, -, -, -, -, e0, e1, -⟩ := idx_facts t
  funext y
  show (V c main_arg7 : S128x128.Idx → EReal) (((cfg1.win 4).blk t).view.emb y) = _
  refine congrArg (V c main_arg7 : S128x128.Idx → EReal) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blk_5 (c : Dev nD) (t : Fin cfg1.N) : iblk1 V c 5 t = (V c main_arg8 : S128.Idx → EReal) := by
  obtain ⟨-, -, -, -, -, -, -, -, -, -, e0, -⟩ := idx_facts t
  funext y
  show (V c main_arg8 : S128.Idx → EReal) (((cfg1.win 5).blk t).view.emb y) = _
  refine congrArg (V c main_arg8 : S128.Idx → EReal) (funext fun a => Fin.ext ?_)
  match a with
  | ⟨0, _⟩ => show win1_5.index t (0 : Fin 1) * 128 + 1 * (y 0).val = (y 0).val; omega

/-- The body's stored value at an entry of a block, over any loaded blocks: the rectified layer at that entry. -/
theorem pay_at (x0 x1 : FVec Ideal S2000x128 .f32) (x2 : FVec Ideal S2000x1 .f32) (x3 x4 : FVec Ideal S128x128 .f32)
    (x5 : FVec Ideal S128 .f32) (D : Fin 2000 → EReal) (p : Fin 2000) (g : Fin 128)
    (hd : x2 (ix2 p (0 : Fin 1)) = Ideal.div oneW (D p)) (hD : D p ≠ 0) :
    k1_pay1 (F := Ideal) x0 x1 x2 x3 x4 x5 (ix2 p g) = max (layerAt x0 x1 D x3 x4 x5 p g) zeroW := by
  have e := kernel_layer_at (shapeCast S2000x128 x0 shapeCasts_S2000x128_S2000x128) (shapeCast S2000x128 x1 shapeCasts_S2000x128_S2000x128) x2 x3 x4 x5
    bitsLt_bf16_f32 bitsLt_bf16_f32 bitsLt_bf16_f32 bitsLt_bf16_f32 shapeCasts_S2000x1_S2000x1 shapeCasts_S2000x1_S2000x1
    broadcasts_S2000x1_S2000x128 shapeCasts_S128_S1x128 broadcasts_S1x128_S2000x128 D p g hd hD
  have e2 : layerAt (shapeCast S2000x128 x0 shapeCasts_S2000x128_S2000x128) (shapeCast S2000x128 x1 shapeCasts_S2000x128_S2000x128) D x3 x4 x5 p g
      = layerAt x0 x1 D x3 x4 x5 p g := by
    rw [shapeCast_self, shapeCast_self]
  exact congrArg₂ max (e.trans e2) rfl

/-- What point t writes back is block t of the layer over the whole arrays. -/
theorem flushed_eq (c : Dev nD) (t : Fin cfg1.N) (D : Fin 50000 → EReal)
    (hd : ∀ r : Fin 50000, (V c main_v8 : S50000x1.Idx → EReal) (ix2 r (0 : Fin 1)) = Ideal.div oneW (D r))
    (hD : ∀ r, D r ≠ 0) :
    (dat1 V c).flushed 6 t = ((cfg1.win 6).blk t).view.read (Elt Ideal)
      (layerRelu (R := 50000) (K := 128) (N := 128) (V c main_v19 : S50000x128.Idx → EReal) (V c main_v29 : S50000x128.Idx → EReal) D
        (V c main_arg6 : S128x128.Idx → EReal) (V c main_arg7 : S128x128.Idx → EReal) (V c main_arg8 : S128.Idx → EReal)) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S128) hz1]
  funext j
  obtain ⟨p, g, rfl⟩ : ∃ (p : Fin 2000) (g : Fin 128), j = ix2 p g := ⟨j 0, j 1, eq_ix2 j⟩
  obtain ⟨-, -, -, -, -, -, -, -, -, -, -, e0, e1⟩ := idx_facts t
  have hemb : ((cfg1.win 6).blk t).view.emb (ix2 p g) = (ix2 (rowOf t p) g : S50000x128.Idx) := by
    refine funext fun a => Fin.ext ?_
    match a with
    | ⟨0, _⟩ => show win1_6.index t (0 : Fin 2) * 2000 + 1 * p.val = t.val * 2000 + p.val; omega
    | ⟨1, _⟩ => show win1_6.index t (1 : Fin 2) * 128 + 1 * g.val = g.val; omega
  refine (pay_at (iblk1 V c 0 t) (iblk1 V c 1 t) (iblk1 V c 2 t) (iblk1 V c 3 t) (iblk1 V c 4 t) (iblk1 V c 5 t)
    (fun q => D (rowOf t q)) p g ((blk_2 V c t p).trans (hd (rowOf t p))) (hD (rowOf t p))).trans ?_
  show _ = layerRelu (R := 50000) (K := 128) (N := 128) _ _ D _ _ _ (((cfg1.win 6).blk t).view.emb (ix2 p g))
  rw [hemb, blk_3, blk_4, blk_5]
  exact congrArg (max · zeroW) (layerAt_congr _ _ _ _ _ D _ _ _ p (rowOf t p) g (fun k => blk_0 V c t p k) (fun k => blk_1 V c t p k) rfl)

/-- Every row of the result lies in the block of the point ⌊row / 2000⌋. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 2000, by show (i 0).val / 2000 < grid1.N; rw [N_1]; omega⟩
  obtain ⟨-, -, -, -, -, -, -, -, -, -, -, e0, e1⟩ := idx_facts t
  have ht : t.val = (i 0).val / 2000 := rfl
  refine ⟨t, flush1_6 t, ?_⟩
  show i ∈ ((View.whole main_v30).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array after the call: the rectified layer of the arrays the call found. -/
theorem final (c : Dev nD) (D : Fin 50000 → EReal)
    (hd : ∀ r : Fin 50000, (V c main_v8 : S50000x1.Idx → EReal) (ix2 r (0 : Fin 1)) = Ideal.div oneW (D r))
    (hD : ∀ r, D r ≠ 0) :
    (dat1 V c).arrAt 6 cfg1.N
      = layerRelu (R := 50000) (K := 128) (N := 128) (V c main_v19 : S50000x128.Idx → EReal) (V c main_v29 : S50000x128.Idx → EReal) D
        (V c main_arg6 : S128x128.Idx → EReal) (V c main_arg7 : S128x128.Idx → EReal) (V c main_arg8 : S128.Idx → EReal) :=
  (dat1 V c).arrAt_eq_of_cover 6 _ (fun t _ => flushed_eq V c t D hd hD) cover

end Cert.KernelIdeal.Layer1

end
-- ==== Proof.Region2.lean ====
/-
  The third layer's pallas_call, read as a value: the same walk over the 50000 node rows in 25 blocks of 2000, on the
  second layer's output as features and on the neighbour sums taken of that output, into 64 output columns and with no
  rectifier.  Block t of the result is block t of the mean-aggregation layer over all rows, and the 25 blocks tile the
  result array.  Stated for any contents the call may find in its arrays, given that the reciprocal column holds
  1 / D r for a count D r ≠ 0.
-/
import proofs.«170077_j43078521979013_1_alg».proof.Proof.Gen.KernelIdeal.Frame
import proofs.«170077_j43078521979013_1_alg».proof.Proof.LibMeanLayer

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem Cert.MeanSage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index of every window at every grid point: the row-indexed windows sit at block t, the weights and the
    bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of block t is row 2000·t + p of the array. -/
def rowOf (t : Fin cfg2.N) (p : Fin 2000) : Fin 50000 :=
  ⟨t.val * 2000 + p.val, by
    have h : t.val < 25 := t.isLt.trans_eq N_2
    have := p.isLt; omega⟩

theorem blk_0 (c : Dev nD) (t : Fin cfg2.N) (p : Fin 2000) (k : Fin 128) :
    iblk2 V c 0 t (ix2 p k) = (V c main_v30 : S50000x128.Idx → EReal) (ix2 (rowOf t p) k) := by
  obtain ⟨e0, e1, -⟩ := idx_facts t
  show (V c main_v30 : S50000x128.Idx → EReal) (((cfg2.win 0).blk t).view.emb (ix2 p k)) = _
  refine congrArg (V c main_v30 : S50000x128.Idx → EReal) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

theorem blk_1 (c : Dev nD) (t : Fin cfg2.N) (p : Fin 2000) (k : Fin 128) :
    iblk2 V c 1 t (ix2 p k) = (V c main_v40 : S50000x128.Idx → EReal) (ix2 (rowOf t p) k) := by
  obtain ⟨-, -, e0, e1, -⟩ := idx_facts t
  show (V c main_v40 : S50000x128.Idx → EReal) (((cfg2.win 1).blk t).view.emb (ix2 p k)) = _
  refine congrArg (V c main_v40 : S50000x128.Idx → EReal) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

theorem blk_2 (c : Dev nD) (t : Fin cfg2.N) (p : Fin 2000) :
    iblk2 V c 2 t (ix2 p (0 : Fin 1)) = (V c main_v8 : S50000x1.Idx → EReal) (ix2 (rowOf t p) (0 : Fin 1)) := by
  obtain ⟨-, -, -, -, e0, e1, -⟩ := idx_facts t
  show (V c main_v8 : S50000x1.Idx → EReal) (((cfg2.win 2).blk t).view.emb (ix2 p (0 : Fin 1))) = _
  refine congrArg (V c main_v8 : S50000x1.Idx → EReal) (funext fun a => Fin.ext ?_)
  match a with
  | ⟨0, _⟩ => show win2_2.index t (0 : Fin 2) * 2000 + 1 * p.val = t.val * 2000 + p.val; omega
  | ⟨1, _⟩ => show win2_2.index t (1 : Fin 2) * 1 + 1 * 0 = 0; omega

theorem blk_3 (c : Dev nD) (t : Fin cfg2.N) : iblk2 V c 3 t = (V c main_arg9 : S128x64.Idx → EReal) := by
  obtain ⟨-, -, -, -, -, -, e0, e1, -⟩ := idx_facts t
  funext y
  show (V c main_arg9 : S128x64.Idx → EReal) (((cfg2.win 3).blk t).view.emb y) = _
  refine congrArg (V c main_arg9 : S128x64.Idx → EReal) (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

theorem blk_4 (c : Dev nD) (t : Fin cfg2.N) : iblk2 V c 4 t = (V c main_arg10 : S128x64.Idx → EReal) := by
  obtain ⟨-, -, -, -, -, -, -, -, e0, e1, -⟩ := idx_facts t
  funext y
  show (V c main_arg10 : S128x64.Idx → EReal) (((cfg2.win 4).blk t).view.emb y) = _
  refine congrArg (V c main_arg10 : S128x64.Idx → EReal) (funext fun a => Fin.ext ?_)
  match a with
  | ⟨0, _⟩ => show win2_4.index t (0 : Fin 2) * 128 + 1 * (y 0).val = (y 0).val; omega
  | ⟨1, _⟩ => show win2_4.index t (1 : Fin 2) * 64 + 1 * (y 1).val = (y 1).val; omega

theorem blk_5 (c : Dev nD) (t : Fin cfg2.N) : iblk2 V c 5 t = (V c main_arg11 : S64.Idx → EReal) := by
  obtain ⟨-, -, -, -, -, -, -, -, -, -, e0, -⟩ := idx_facts t
  funext y
  show (V c main_arg11 : S64.Idx → EReal) (((cfg2.win 5).blk t).view.emb y) = _
  refine congrArg (V c main_arg11 : S64.Idx → EReal) (funext fun a => Fin.ext ?_)
  match a with
  | ⟨0, _⟩ => show win2_5.index t (0 : Fin 1) * 64 + 1 * (y 0).val = (y 0).val; omega

/-- The body's stored value at an entry of a block, over any loaded blocks: the layer at that entry (the last layer is
    not rectified). -/
theorem pay_at (x0 x1 : FVec Ideal S2000x128 .f32) (x2 : FVec Ideal S2000x1 .f32) (x3 x4 : FVec Ideal S128x64 .f32)
    (x5 : FVec Ideal S64 .f32) (D : Fin 2000 → EReal) (p : Fin 2000) (g : Fin 64)
    (hd : x2 (ix2 p (0 : Fin 1)) = Ideal.div oneW (D p)) (hD : D p ≠ 0) :
    k2_pay1 (F := Ideal) x0 x1 x2 x3 x4 x5 (ix2 p g) = layerAt x0 x1 D x3 x4 x5 p g := by
  have e := kernel_layer_at (shapeCast S2000x128 x0 shapeCasts_S2000x128_S2000x128) (shapeCast S2000x128 x1 shapeCasts_S2000x128_S2000x128) x2 x3 x4 x5
    bitsLt_bf16_f32 bitsLt_bf16_f32 bitsLt_bf16_f32 bitsLt_bf16_f32 shapeCasts_S2000x1_S2000x1 shapeCasts_S2000x1_S2000x1
    broadcasts_S2000x1_S2000x128 shapeCasts_S64_S1x64 broadcasts_S1x64_S2000x64 D p g hd hD
  have e2 : layerAt (shapeCast S2000x128 x0 shapeCasts_S2000x128_S2000x128) (shapeCast S2000x128 x1 shapeCasts_S2000x128_S2000x128) D x3 x4 x5 p g
      = layerAt x0 x1 D x3 x4 x5 p g := by
    rw [shapeCast_self, shapeCast_self]
  exact e.trans e2

/-- What point t writes back is block t of the layer over the whole arrays. -/
theorem flushed_eq (c : Dev nD) (t : Fin cfg2.N) (D : Fin 50000 → EReal)
    (hd : ∀ r : Fin 50000, (V c main_v8 : S50000x1.Idx → EReal) (ix2 r (0 : Fin 1)) = Ideal.div oneW (D r))
    (hD : ∀ r, D r ≠ 0) :
    (dat2 V c).flushed 6 t = ((cfg2.win 6).blk t).view.read (Elt Ideal)
      (layerLin (R := 50000) (K := 128) (N := 64) (V c main_v30 : S50000x128.Idx → EReal) (V c main_v40 : S50000x128.Idx → EReal) D
        (V c main_arg9 : S128x64.Idx → EReal) (V c main_arg10 : S128x64.Idx → EReal) (V c main_arg11 : S64.Idx → EReal)) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x64) hz,
    View.ld_unit_zero (S := S64) hz1]
  funext j
  obtain ⟨p, g, rfl⟩ : ∃ (p : Fin 2000) (g : Fin 64), j = ix2 p g := ⟨j 0, j 1, eq_ix2 j⟩
  obtain ⟨-, -, -, -, -, -, -, -, -, -, -, e0, e1⟩ := idx_facts t
  have hemb : ((cfg2.win 6).blk t).view.emb (ix2 p g) = (ix2 (rowOf t p) g : S50000x64.Idx) := by
    refine funext fun a => Fin.ext ?_
    match a with
    | ⟨0, _⟩ => show win2_6.index t (0 : Fin 2) * 2000 + 1 * p.val = t.val * 2000 + p.val; omega
    | ⟨1, _⟩ => show win2_6.index t (1 : Fin 2) * 64 + 1 * g.val = g.val; omega
  refine (pay_at (iblk2 V c 0 t) (iblk2 V c 1 t) (iblk2 V c 2 t) (iblk2 V c 3 t) (iblk2 V c 4 t) (iblk2 V c 5 t)
    (fun q => D (rowOf t q)) p g ((blk_2 V c t p).trans (hd (rowOf t p))) (hD (rowOf t p))).trans ?_
  show _ = layerLin (R := 50000) (K := 128) (N := 64) _ _ D _ _ _ (((cfg2.win 6).blk t).view.emb (ix2 p g))
  rw [hemb, blk_3, blk_4, blk_5]
  exact layerAt_congr _ _ _ _ _ D _ _ _ p (rowOf t p) g (fun k => blk_0 V c t p k) (fun k => blk_1 V c t p k) rfl

/-- Every row of the result lies in the block of the point ⌊row / 2000⌋. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  let t : Fin cfg2.N := ⟨(i 0).val / 2000, by show (i 0).val / 2000 < grid2.N; rw [N_2]; omega⟩
  obtain ⟨-, -, -, -, -, -, -, -, -, -, -, e0, e1⟩ := idx_facts t
  have ht : t.val = (i 0).val / 2000 := rfl
  refine ⟨t, flush2_6 t, ?_⟩
  show i ∈ ((View.whole main_v41).slice (win2_6.rect t)).set
  rw [View.set_slice_whole, Rect.mem_set_unit]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- The result array after the call: the layer of the arrays the call found. -/
theorem final (c : Dev nD) (D : Fin 50000 → EReal)
    (hd : ∀ r : Fin 50000, (V c main_v8 : S50000x1.Idx → EReal) (ix2 r (0 : Fin 1)) = Ideal.div oneW (D r))
    (hD : ∀ r, D r ≠ 0) :
    (dat2 V c).arrAt 6 cfg2.N
      = layerLin (R := 50000) (K := 128) (N := 64) (V c main_v30 : S50000x128.Idx → EReal) (V c main_v40 : S50000x128.Idx → EReal) D
        (V c main_arg9 : S128x64.Idx → EReal) (V c main_arg10 : S128x64.Idx → EReal) (V c main_arg11 : S64.Idx → EReal) :=
  (dat2 V c).arrAt_eq_of_cover 6 _ (fun t _ => flushed_eq V c t D hd hD) cover

end Cert.KernelIdeal.Layer2

end
-- ==== Proof.HostTerms.lean ====
/-
  The host-side pieces the two programs share, as functions of whole arrays on the extended reals, and the network
  they are composed into.

  Both programs turn the edge list (src, dst) into the same two things: for node features h, the per-node SUM of the
  source features over the edges that end at the node (gather the rows h[src], scatter-add them at dst into zeros:
  `aggOf`), and the per-node number of such edges (scatter-add ones at dst into zeros: `degOf`), clamped from below
  at one (`cntOf`).  Neither is opened here: whatever the edge list holds, the two programs apply the same operations
  to the same arrays.  The network is three mean-aggregation layers, the first two rectified, each taking the
  previous layer's output both as features and, through `aggOf`, as neighbour sums.
-/
import proofs.«170077_j43078521979013_1_alg».proof.Proof.Gen.ReferenceIdeal
import proofs.«170077_j43078521979013_1_alg».proof.Proof.LibMeanLayer

noncomputable section

namespace Cert.SageNet

open Cert.ReferenceIdeal Cert.ReferenceIdeal.Facts₀ Cert.ReferenceIdeal.Facts Idealize.ShloMosaic Idealize.ShloMosaic.ValueIdx Cert.MeanSage

/-- The start indices of the gather: a negative source index is taken from the end (jnp's indexing), then made a
    column. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The per-node sum of the source features over the incoming edges. -/
def aggOf (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h (srcCol src))

/-- The per-node number of incoming edges. -/
def degOf (dst : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The count clamped from below at one, as the host spells it. -/
def cntVec (dst : IVec S800000 32) : FVec Ideal S50000 .f32 :=
  maximumf (degOf dst) (broadcastInDim S50000 ![] bcast_S_S50000 (constant (F := Ideal) S_ .f32 0x3F800000#32))

/-- The clamped count of node r. -/
def cntOf (dst : IVec S800000 32) (r : Fin 50000) : EReal := clamp (degOf dst (ix1 r))

theorem cntVec_apply (dst : IVec S800000 32) (r : Fin 50000) : cntVec dst (ix1 r) = cntOf dst r := by
  unfold cntVec cntOf clamp
  rw [maximumf_apply]
  exact congrArg (max (degOf dst (ix1 r))) (broadcastInDim_scalar_apply bcast_S_S50000 _ (ix1 r))

theorem cntOf_ne_zero (dst : IVec S800000 32) (r : Fin 50000) : cntOf dst r ≠ 0 := clamp_ne_zero _

/-- The first layer's output. -/
def hid1 (x : FVec Ideal S50000x128 .f32) (src dst : IVec S800000 32) (Ws Wn : FVec Ideal S128x128 .f32)
    (b : FVec Ideal S128 .f32) : FVec Ideal S50000x128 .f32 :=
  layerRelu (R := 50000) (K := 128) (N := 128) x (aggOf x src dst) (cntOf dst) Ws Wn b

/-- The last layer's output, from the second layer's. -/
def outOf (h : FVec Ideal S50000x128 .f32) (src dst : IVec S800000 32) (Ws Wn : FVec Ideal S128x64 .f32)
    (b : FVec Ideal S64 .f32) : FVec Ideal S50000x64 .f32 :=
  layerLin (R := 50000) (K := 128) (N := 64) h (aggOf h src dst) (cntOf dst) Ws Wn b

/-- The network: three layers, the first two rectified. -/
def net (x : FVec Ideal S50000x128 .f32) (src dst : IVec S800000 32) (W0s W0n : FVec Ideal S128x128 .f32)
    (b0 : FVec Ideal S128 .f32) (W1s W1n : FVec Ideal S128x128 .f32) (b1 : FVec Ideal S128 .f32)
    (W2s W2n : FVec Ideal S128x64 .f32) (b2 : FVec Ideal S64 .f32) : FVec Ideal S50000x64 .f32 :=
  outOf (hid1 (hid1 x src dst W0s W0n b0) src dst W1s W1n b1) src dst W2s W2n b2

end Cert.SageNet

end
-- ==== Proof.KernelValue.lean ====
/-
  The idealized kernel program's result as the network of three mean-aggregation layers.

  Reading the program's segments from the launch: the first stretch of host operations leaves the neighbour sums of the
  input features, and a column holding 1 / (count clamped at one); the first pallas_call leaves the rectified first
  layer; the next stretch takes the neighbour sums of that; the second call leaves the rectified second layer; the last
  stretch takes its neighbour sums; the third call leaves the result.  The reciprocal column and the edge list are
  written once and read by all three calls unchanged, and no segment writes an argument.
-/
import proofs.«170077_j43078521979013_1_alg».proof.Proof.KernelRun
import proofs.«170077_j43078521979013_1_alg».proof.Proof.Region0
import proofs.«170077_j43078521979013_1_alg».proof.Proof.Region1
import proofs.«170077_j43078521979013_1_alg».proof.Proof.Region2
import proofs.«170077_j43078521979013_1_alg».proof.Proof.HostTerms

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo
open Cert.MeanSage Cert.SageNet

variable (m : (ℓ : Loc nD τ sig) → Buf (Elt Ideal) ℓ) (ρ : Dev nD → PrngReg) (c : Dev nD)

/-! ## The two programs' dimension records are the same records -/

theorem scatter1_eq : scatter_S50000_S800000x1_S800000_n_0_0_1 = Cert.ReferenceIdeal.scatter_S50000_S800000x1_S800000_n_0_0_1 := rfl
theorem scatter2_eq : scatter_S50000x128_S800000x1_S800000x128_1_0_0_1 = Cert.ReferenceIdeal.scatter_S50000x128_S800000x1_S800000x128_1_0_0_1 := rfl
theorem gather_eq : gather_S50000x128_S800000x1_S800000x128_1_0_n_n_0_1_1128 = Cert.ReferenceIdeal.gather_S50000x128_S800000x1_S800000x128_1_0_n_n_0_1_1128 := rfl

/-- The kernel program's spelling of the neighbour sums is the shared function. -/
theorem agg_spelt (h : FVec Ideal S50000x128 .f32) (src dst : IVec S800000 32) :
    Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      = aggOf h src dst := by
  unfold aggOf srcCol
  rw [scatter2_eq, gather_eq]

/-- The kernel program's spelling of the clamped counts is the shared function. -/
theorem cnt_spelt (dst : IVec S800000 32) :
    maximumf (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32))
      = cntVec dst := by
  unfold cntVec degOf
  rw [scatter1_eq]

/-! ## The first stretch of host operations -/

theorem V1_arg0 : V1 m ρ c main_arg0 = m ((c.tc : Thread nD τ).loc main_arg0) := by
  show StableHlo.after hostOps0 _ _ = _; after_results_simp <;> rfl
theorem V1_arg3 : V1 m ρ c main_arg3 = m ((c.tc : Thread nD τ).loc main_arg3) := by
  show StableHlo.after hostOps0 _ _ = _; after_results_simp <;> rfl
theorem V1_arg4 : V1 m ρ c main_arg4 = m ((c.tc : Thread nD τ).loc main_arg4) := by
  show StableHlo.after hostOps0 _ _ = _; after_results_simp <;> rfl
theorem V1_arg5 : V1 m ρ c main_arg5 = m ((c.tc : Thread nD τ).loc main_arg5) := by
  show StableHlo.after hostOps0 _ _ = _; after_results_simp <;> rfl
theorem W1_arg1 : W1 m ρ c (Proc.devRef .tc main_arg1) = m ((c.tc : Thread nD τ).loc main_arg1) := by
  show StableHlo.after hostOps0 _ _ = _; after_results_simp <;> rfl
theorem W1_arg2 : W1 m ρ c (Proc.devRef .tc main_arg2) = m ((c.tc : Thread nD τ).loc main_arg2) := by
  show StableHlo.after hostOps0 _ _ = _; after_results_simp <;> rfl
theorem W1_arg6 : W1 m ρ c (Proc.devRef .tc main_arg6) = m ((c.tc : Thread nD τ).loc main_arg6) := by
  show StableHlo.after hostOps0 _ _ = _; after_results_simp <;> rfl
theorem W1_arg7 : W1 m ρ c (Proc.devRef .tc main_arg7) = m ((c.tc : Thread nD τ).loc main_arg7) := by
  show StableHlo.after hostOps0 _ _ = _; after_results_simp <;> rfl
theorem W1_arg8 : W1 m ρ c (Proc.devRef .tc main_arg8) = m ((c.tc : Thread nD τ).loc main_arg8) := by
  show StableHlo.after hostOps0 _ _ = _; after_results_simp <;> rfl
theorem W1_arg9 : W1 m ρ c (Proc.devRef .tc main_arg9) = m ((c.tc : Thread nD τ).loc main_arg9) := by
  show StableHlo.after hostOps0 _ _ = _; after_results_simp <;> rfl
theorem W1_arg10 : W1 m ρ c (Proc.devRef .tc main_arg10) = m ((c.tc : Thread nD τ).loc main_arg10) := by
  show StableHlo.after hostOps0 _ _ = _; after_results_simp <;> rfl
theorem W1_arg11 : W1 m ρ c (Proc.devRef .tc main_arg11) = m ((c.tc : Thread nD τ).loc main_arg11) := by
  show StableHlo.after hostOps0 _ _ = _; after_results_simp <;> rfl

/-- The neighbour sums of the input features. -/
theorem V1_v18 : V1 m ρ c main_v18 = aggOf (m ((c.tc : Thread nD τ).loc main_arg0)) (m ((c.tc : Thread nD τ).loc main_arg1))
    (m ((c.tc : Thread nD τ).loc main_arg2)) := by
  show StableHlo.after hostOps0 _ _ = _
  after_results_simp
  exact agg_spelt _ _ _

/-- The reciprocal column: entry (r, 0) is 1 / (count of node r clamped at one). -/
theorem V1_v8 (r : Fin 50000) : (V1 m ρ c main_v8 : S50000x1.Idx → EReal) (ix2 r (0 : Fin 1))
    = Ideal.div oneW (cntOf (m ((c.tc : Thread nD τ).loc main_arg2)) r) := by
  have e : (V1 m ρ c main_v8 : S50000x1.Idx → EReal)
      = shapeCast S50000x1 (Host.divf (broadcastInDim S50000 ![] bcast_S_S50000 (constant (F := Ideal) S_ .f32 0x3F800000#32))
          (cntVec (m ((c.tc : Thread nD τ).loc main_arg2)))) shapeCasts_S50000_S50000x1 := by
    show StableHlo.after hostOps0 _ _ = _
    after_results_simp
    rw [cnt_spelt]
    rfl
  rw [e, Cert.LibKeepdims.shapeCast_a_a1_apply, hostDivf_apply, cntVec_apply, broadcastInDim_scalar_apply]
  first | done | rfl

/-! ## The first call -/

theorem W2_v19 : W2 m ρ c (Proc.devRef .tc main_v19) = (dat0 (V1 m ρ) c).arrAt 6 cfg0.N := W2_arr m ρ c 6
theorem W2_v8 : W2 m ρ c (Proc.devRef .tc main_v8) = V1 m ρ c main_v8 :=
  (W2_arr m ρ c 2).trans (((dat0 (V1 m ρ) c).arrAt_in 2 rfl _).trans (A_eq0 (V1 m ρ) c 2))
theorem W2_arg1 : W2 m ρ c (Proc.devRef .tc main_arg1) = m ((c.tc : Thread nD τ).loc main_arg1) :=
  (W2_of_ne m ρ c main_arg1 (by decide)).trans (W1_arg1 m ρ c)
theorem W2_arg2 : W2 m ρ c (Proc.devRef .tc main_arg2) = m ((c.tc : Thread nD τ).loc main_arg2) :=
  (W2_of_ne m ρ c main_arg2 (by decide)).trans (W1_arg2 m ρ c)
theorem W2_arg6 : W2 m ρ c (Proc.devRef .tc main_arg6) = m ((c.tc : Thread nD τ).loc main_arg6) :=
  (W2_of_ne m ρ c main_arg6 (by decide)).trans (W1_arg6 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)
theorem W2_arg9 : W2 m ρ c (Proc.devRef .tc main_arg9) = m ((c.tc : Thread nD τ).loc main_arg9) :=
  (W2_of_ne m ρ c main_arg9 (by decide)).trans (W1_arg9 m ρ c)
theorem W2_arg10 : W2 m ρ c (Proc.devRef .tc main_arg10) = m ((c.tc : Thread nD τ).loc main_arg10) :=
  (W2_of_ne m ρ c main_arg10 (by decide)).trans (W1_arg10 m ρ c)
theorem W2_arg11 : W2 m ρ c (Proc.devRef .tc main_arg11) = m ((c.tc : Thread nD τ).loc main_arg11) :=
  (W2_of_ne m ρ c main_arg11 (by decide)).trans (W1_arg11 m ρ c)

/-- After the first call its result array holds the first layer. -/
theorem first_layer : W2 m ρ c (Proc.devRef .tc main_v19)
    = hid1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [W2_v19, Cert.KernelIdeal.Layer0.final (V1 m ρ) c (cntOf (m ((c.tc : Thread nD τ).loc main_arg2))) (V1_v8 m ρ c)
    (cntOf_ne_zero _), V1_arg0, V1_v18, V1_arg3, V1_arg4, V1_arg5]
  rfl

/-! ## The second stretch and the second call -/

theorem V3_v19 : V3 m ρ c main_v19 = W2 m ρ c (Proc.devRef .tc main_v19) := by
  show StableHlo.after hostOps1 _ _ = _; after_results_simp <;> rfl
theorem V3_v8 : V3 m ρ c main_v8 = W2 m ρ c (Proc.devRef .tc main_v8) := by
  show StableHlo.after hostOps1 _ _ = _; after_results_simp <;> rfl
theorem V3_arg6 : V3 m ρ c main_arg6 = W2 m ρ c (Proc.devRef .tc main_arg6) := by
  show StableHlo.after hostOps1 _ _ = _; after_results_simp <;> rfl
theorem V3_arg7 : V3 m ρ c main_arg7 = W2 m ρ c (Proc.devRef .tc main_arg7) := by
  show StableHlo.after hostOps1 _ _ = _; after_results_simp <;> rfl
theorem V3_arg8 : V3 m ρ c main_arg8 = W2 m ρ c (Proc.devRef .tc main_arg8) := by
  show StableHlo.after hostOps1 _ _ = _; after_results_simp <;> rfl
theorem W3_arg1 : W3 m ρ c (Proc.devRef .tc main_arg1) = W2 m ρ c (Proc.devRef .tc main_arg1) := by
  show StableHlo.after hostOps1 _ _ = _; after_results_simp <;> rfl
theorem W3_arg2 : W3 m ρ c (Proc.devRef .tc main_arg2) = W2 m ρ c (Proc.devRef .tc main_arg2) := by
  show StableHlo.after hostOps1 _ _ = _; after_results_simp <;> rfl
theorem W3_arg9 : W3 m ρ c (Proc.devRef .tc main_arg9) = W2 m ρ c (Proc.devRef .tc main_arg9) := by
  show StableHlo.after hostOps1 _ _ = _; after_results_simp <;> rfl
theorem W3_arg10 : W3 m ρ c (Proc.devRef .tc main_arg10) = W2 m ρ c (Proc.devRef .tc main_arg10) := by
  show StableHlo.after hostOps1 _ _ = _; after_results_simp <;> rfl
theorem W3_arg11 : W3 m ρ c (Proc.devRef .tc main_arg11) = W2 m ρ c (Proc.devRef .tc main_arg11) := by
  show StableHlo.after hostOps1 _ _ = _; after_results_simp <;> rfl

/-- The neighbour sums of the first layer. -/
theorem V3_v29 : V3 m ρ c main_v29 = aggOf (W2 m ρ c (Proc.devRef .tc main_v19)) (W2 m ρ c (Proc.devRef .tc main_arg1))
    (W2 m ρ c (Proc.devRef .tc main_arg2)) := by
  show StableHlo.after hostOps1 _ _ = _
  after_results_simp
  exact agg_spelt _ _ _

theorem V3_col (r : Fin 50000) : (V3 m ρ c main_v8 : S50000x1.Idx → EReal) (ix2 r (0 : Fin 1))
    = Ideal.div oneW (cntOf (m ((c.tc : Thread nD τ).loc main_arg2)) r) := by
  rw [V3_v8, W2_v8]; exact V1_v8 m ρ c r

theorem W4_v30 : W4 m ρ c (Proc.devRef .tc main_v30) = (dat1 (V3 m ρ) c).arrAt 6 cfg1.N := W4_arr m ρ c 6
theorem W4_v8 : W4 m ρ c (Proc.devRef .tc main_v8) = V3 m ρ c main_v8 :=
  (W4_arr m ρ c 2).trans (((dat1 (V3 m ρ) c).arrAt_in 2 rfl _).trans (A_eq1 (V3 m ρ) c 2))
theorem W4_arg1 : W4 m ρ c (Proc.devRef .tc main_arg1) = m ((c.tc : Thread nD τ).loc main_arg1) :=
  (W4_of_ne m ρ c main_arg1 (by decide)).trans ((W3_arg1 m ρ c).trans (W2_arg1 m ρ c))
theorem W4_arg2 : W4 m ρ c (Proc.devRef .tc main_arg2) = m ((c.tc : Thread nD τ).loc main_arg2) :=
  (W4_of_ne m ρ c main_arg2 (by decide)).trans ((W3_arg2 m ρ c).trans (W2_arg2 m ρ c))
theorem W4_arg9 : W4 m ρ c (Proc.devRef .tc main_arg9) = m ((c.tc : Thread nD τ).loc main_arg9) :=
  (W4_of_ne m ρ c main_arg9 (by decide)).trans ((W3_arg9 m ρ c).trans (W2_arg9 m ρ c))
theorem W4_arg10 : W4 m ρ c (Proc.devRef .tc main_arg10) = m ((c.tc : Thread nD τ).loc main_arg10) :=
  (W4_of_ne m ρ c main_arg10 (by decide)).trans ((W3_arg10 m ρ c).trans (W2_arg10 m ρ c))
theorem W4_arg11 : W4 m ρ c (Proc.devRef .tc main_arg11) = m ((c.tc : Thread nD τ).loc main_arg11) :=
  (W4_of_ne m ρ c main_arg11 (by decide)).trans ((W3_arg11 m ρ c).trans (W2_arg11 m ρ c))

/-- After the second call its result array holds the second layer of the first. -/
theorem second_layer : W4 m ρ c (Proc.devRef .tc main_v30)
    = hid1 (W2 m ρ c (Proc.devRef .tc main_v19)) (m ((c.tc : Thread nD τ).loc main_arg1)) (m ((c.tc : Thread nD τ).loc main_arg2))
        (m ((c.tc : Thread nD τ).loc main_arg6)) (m ((c.tc : Thread nD τ).loc main_arg7)) (m ((c.tc : Thread nD τ).loc main_arg8)) := by
  rw [W4_v30, Cert.KernelIdeal.Layer1.final (V3 m ρ) c (cntOf (m ((c.tc : Thread nD τ).loc main_arg2))) (V3_col m ρ c)
    (cntOf_ne_zero _), V3_v19, V3_v29, V3_arg6, V3_arg7, V3_arg8, W2_arg1, W2_arg2, W2_arg6, W2_arg7, W2_arg8]
  rfl

/-! ## The third stretch and the third call -/

theorem V5_v30 : V5 m ρ c main_v30 = W4 m ρ c (Proc.devRef .tc main_v30) := by
  show StableHlo.after hostOps2 _ _ = _; after_results_simp <;> rfl
theorem V5_v8 : V5 m ρ c main_v8 = W4 m ρ c (Proc.devRef .tc main_v8) := by
  show StableHlo.after hostOps2 _ _ = _; after_results_simp <;> rfl
theorem V5_arg9 : V5 m ρ c main_arg9 = W4 m ρ c (Proc.devRef .tc main_arg9) := by
  show StableHlo.after hostOps2 _ _ = _; after_results_simp <;> rfl
theorem V5_arg10 : V5 m ρ c main_arg10 = W4 m ρ c (Proc.devRef .tc main_arg10) := by
  show StableHlo.after hostOps2 _ _ = _; after_results_simp <;> rfl
theorem V5_arg11 : V5 m ρ c main_arg11 = W4 m ρ c (Proc.devRef .tc main_arg11) := by
  show StableHlo.after hostOps2 _ _ = _; after_results_simp <;> rfl

/-- The neighbour sums of the second layer. -/
theorem V5_v40 : V5 m ρ c main_v40 = aggOf (W4 m ρ c (Proc.devRef .tc main_v30)) (W4 m ρ c (Proc.devRef .tc main_arg1))
    (W4 m ρ c (Proc.devRef .tc main_arg2)) := by
  show StableHlo.after hostOps2 _ _ = _
  after_results_simp
  exact agg_spelt _ _ _

theorem V5_col (r : Fin 50000) : (V5 m ρ c main_v8 : S50000x1.Idx → EReal) (ix2 r (0 : Fin 1))
    = Ideal.div oneW (cntOf (m ((c.tc : Thread nD τ).loc main_arg2)) r) := by
  rw [V5_v8, W4_v8]; exact V3_col m ρ c r

/-- THE RESULT: after the third call the result array holds the network of the arguments. -/
theorem result_eq : W6 m ρ c (Proc.devRef .tc main_v41)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  rw [show W6 m ρ c (Proc.devRef .tc main_v41) = (dat2 (V5 m ρ) c).arrAt 6 cfg2.N from W6_arr m ρ c 6,
    Cert.KernelIdeal.Layer2.final (V5 m ρ) c (cntOf (m ((c.tc : Thread nD τ).loc main_arg2))) (V5_col m ρ c) (cntOf_ne_zero _),
    V5_v30, V5_v40, V5_arg9, V5_arg10, V5_arg11, W4_arg1, W4_arg2, W4_arg9, W4_arg10, W4_arg11, second_layer, first_layer]
  rfl

end Cert.KernelIdeal.Result

end
-- ==== Proof.RefValue.lean ====
/-
  The reference program's result as the network of three mean-aggregation layers.  Its run ends with the result at one
  long term of the argument arrays: three times over, a gather and a scatter-add (the neighbour sums), a scatter-add
  of ones clamped at one (the counts), a division, two matrix products added, a bias added, and for the first two
  layers a maximum against zero.  Each of those stretches is, as a whole matrix, the layer function of the arrays going
  in; rewriting them from the inside out leaves the network.
-/
import proofs.«170077_j43078521979013_1_alg».proof.Proof.Gen.ReferenceIdeal.Run
import proofs.«170077_j43078521979013_1_alg».proof.Proof.HostTerms

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.MeanSage Cert.SageNet

theorem dot128 : dot_S50000x128_S128x128_S50000x128_1_0_0_1_n_n = DotDims.plain 50000 128 128 := rfl
theorem dot64 : dot_S50000x128_S128x64_S50000x64_1_0_0_1_n_n = DotDims.plain 50000 128 64 := rfl

/-- The host's rectified layer, as a whole matrix, over any neighbour sums and any raw counts. -/
theorem host_relu (h A : FVec Ideal S50000x128 .f32) (dg : FVec Ideal S50000 .f32) (Ws Wn : FVec Ideal S128x128 .f32)
    (b : FVec Ideal S128 .f32) :
    maximumf (addf (addf (Host.dotGeneral dot_S50000x128_S128x128_S50000x128_1_0_0_1_n_n none h Ws)
        (Host.dotGeneral dot_S50000x128_S128x128_S50000x128_1_0_0_1_n_n none
          (Host.divf A (broadcastInDim S50000x128 ![0, 1] bcast_S50000x1_S50000x128_0_1
            (broadcastInDim S50000x1 ![0] bcast_S50000_S50000x1_0
              (maximumf dg (broadcastInDim S50000 ![] bcast_S_S50000 (constant (F := Ideal) S_ .f32 0x3F800000#32)))))) Wn))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
    = layerRelu (R := 50000) (K := 128) (N := 128) h A (fun r => clamp (dg (ix1 r))) Ws Wn b := by
  funext i
  obtain ⟨r, g, rfl⟩ : ∃ (r : Fin 50000) (g : Fin 128), i = ix2 r g := ⟨i 0, i 1, eq_ix2 i⟩
  rw [maximumf_apply, dot128]
  refine congrArg₂ max ?_ rfl
  exact host_layer_at h A _ Ws Wn b ![0] rfl bcast_S50000_S50000x1_0 ![0, 1] rfl rfl bcast_S50000x1_S50000x128_0_1
    ![1] rfl bcast_S128_S1x128_1 ![0, 1] rfl rfl bcast_S1x128_S50000x128_0_1 r g

/-- The host's last layer (64 columns, no rectifier), as a whole matrix. -/
theorem host_lin (h A : FVec Ideal S50000x128 .f32) (dg : FVec Ideal S50000 .f32) (Ws Wn : FVec Ideal S128x64 .f32)
    (b : FVec Ideal S64 .f32) :
    addf (addf (Host.dotGeneral dot_S50000x128_S128x64_S50000x64_1_0_0_1_n_n none h Ws)
        (Host.dotGeneral dot_S50000x128_S128x64_S50000x64_1_0_0_1_n_n none
          (Host.divf A (broadcastInDim S50000x128 ![0, 1] bcast_S50000x1_S50000x128_0_1
            (broadcastInDim S50000x1 ![0] bcast_S50000_S50000x1_0
              (maximumf dg (broadcastInDim S50000 ![] bcast_S_S50000 (constant (F := Ideal) S_ .f32 0x3F800000#32)))))) Wn))
        (broadcastInDim S50000x64 ![0, 1] bcast_S1x64_S50000x64_0_1 (broadcastInDim S1x64 ![1] bcast_S64_S1x64_1 b))
    = layerLin (R := 50000) (K := 128) (N := 64) h A (fun r => clamp (dg (ix1 r))) Ws Wn b := by
  funext i
  obtain ⟨r, g, rfl⟩ : ∃ (r : Fin 50000) (g : Fin 64), i = ix2 r g := ⟨i 0, i 1, eq_ix2 i⟩
  rw [dot64]
  exact host_layer_at h A _ Ws Wn b ![0] rfl bcast_S50000_S50000x1_0 ![0, 1] rfl rfl bcast_S50000x1_S50000x128_0_1
    ![1] rfl bcast_S64_S1x64_1 ![0, 1] rfl rfl bcast_S1x64_S50000x64_0_1 r g

/-- The reference's result is the network of its arguments. -/
theorem result_eq (m : (ℓ : Loc nD τ sig) → Buf (Elt Ideal) ℓ) (c : Dev nD) :
    res_main_v76 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold res_main_v76
  rw [host_relu, host_relu, host_lin]
  rfl

end Cert.ReferenceIdeal.RefValue

end
-- ==== Proof.lean ====
/-
  Three stacked mean-aggregation graph layers (GraphSAGE) on 50000 nodes and 800000 edges: the kernel program against
  its jnp reference, on the extended reals.

  Both programs compute, three times over, with h the current node features:
      a = the per-node sum of h[src] over the edges ending at the node      (a gather and a scatter-add on the host),
      out = ( h · W_self  +  (a / D) · W_neigh ) + b,     D = max (number of incoming edges, 1),
  rectified after the first two layers.  The kernel program counts the edges once, stores the column 1 / D, and has a
  pallas_call per layer compute  (h · W_self + (a · (1 / D)) · W_neigh) + b  block of 2000 rows by block of 2000 rows;
  the reference divides a by D on the host in every layer.  Since D ≥ 1 is never zero, a · (1 / D) = a / D at every
  extended real, so the two are one function of the twelve arguments (`Cert.SageNet.net`): the matrix products are
  the same plain sums in the same grouping, the narrowing to bf16 is the identity, and the gather and scatter are the
  same host operations applied to equal arrays.  No finiteness of the inputs is used.

  The three frames: the two kernel programs' are the generated frame certificates; the reference's is its generated run
  with the result dropped.  `preserves` is trivial: the idealization rewrote nothing.
-/
import proofs.«170077_j43078521979013_1_alg».proof.Defs
import proofs.«170077_j43078521979013_1_alg».proof.Proof.Gen.Kernel
import proofs.«170077_j43078521979013_1_alg».proof.Proof.Gen.Kernel.Skeleton
import proofs.«170077_j43078521979013_1_alg».proof.Proof.Gen.Kernel.Launch
import proofs.«170077_j43078521979013_1_alg».proof.Proof.Gen.Kernel.Points
import proofs.«170077_j43078521979013_1_alg».proof.Proof.Gen.Kernel.Frame
import proofs.«170077_j43078521979013_1_alg».proof.Proof.Gen.KernelIdeal
import proofs.«170077_j43078521979013_1_alg».proof.Proof.Gen.KernelIdeal.Skeleton
import proofs.«170077_j43078521979013_1_alg».proof.Proof.Gen.KernelIdeal.Launch
import proofs.«170077_j43078521979013_1_alg».proof.Proof.Gen.KernelIdeal.Points
import proofs.«170077_j43078521979013_1_alg».proof.Proof.Gen.KernelIdeal.Frame
import proofs.«170077_j43078521979013_1_alg».proof.Proof.Gen.ReferenceIdeal
import proofs.«170077_j43078521979013_1_alg».proof.Proof.Gen.Pre_finite_inputs
import proofs.«170077_j43078521979013_1_alg».proof.Proof.Gen.ReferenceIdeal.Run
import proofs.«170077_j43078521979013_1_alg».proof.Proof.KernelValue
import proofs.«170077_j43078521979013_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result arrays, and the arguments agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Result.result_eq m ρ c), (h c).2⟩)
    (Cert.KernelIdeal.Result.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.RefValue.result_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
